-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S131072x128 .f32) (main_arg1 : FVec F S512x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S131072x128 : Shape := ⟨2, ![131072, 128]⟩
abbrev S512x128 : Shape := ⟨2, ![512, 128]⟩
abbrev S_ : Shape := ⟨0, ![]⟩
abbrev S512 : Shape := ⟨1, ![512]⟩
abbrev S1x512 : Shape := ⟨2, ![1, 512]⟩
abbrev S128x512 : Shape := ⟨2, ![128, 512]⟩
abbrev S131072x512 : Shape := ⟨2, ![131072, 512]⟩
abbrev S8192 : Shape := ⟨1, ![8192]⟩
abbrev S2048x128 : Shape := ⟨2, ![2048, 128]⟩
abbrev S2048x512 : Shape := ⟨2, ![2048, 512]⟩
abbrev S128 : Shape := ⟨1, ![128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S64x128 : Shape := ⟨2, ![64, 128]⟩
abbrev S64x1 : Shape := ⟨2, ![64, 1]⟩
abbrev S64 : Shape := ⟨1, ![64]⟩

abbrev nBuf : Space → Nat
  | .hbm => 17
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512x128, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S512x128, .bf16⟩
  | .hbm, ⟨7, _⟩ => ⟨S128x512, .bf16⟩
  | .hbm, ⟨8, _⟩ => ⟨S131072x512, .f32⟩
  | .hbm, ⟨9, _⟩ => ⟨S8192, .f32⟩
  | .hbm, ⟨10, _⟩ => ⟨S64x128, .f32⟩
  | .hbm, ⟨11, _⟩ => ⟨S64x1, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S128x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S128, .f32⟩
  | .local _ .vmem, ⟨7, _⟩ => ⟨S128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512x128_S512_d1 : S512x128.ReducesTo [1] S512
  h_S_ : 0 < S_.numel
  bcast_S512_S1x512_1 : S512.BroadcastsInDim S1x512 (![1] : Fin 1 → Fin S1x512.rank)
  bitsLt_bf16_f32 : FTy.bits .bf16 < FTy.bits .f32
  transposes_S512x128_S128x512_1_0 : S512x128.Transposes [1, 0] S128x512
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x128_S2048 : S2048x128.Reduces [1] S2048
  shapeCasts_S2048_S2048x1 : S2048.ShapeCasts S2048x1
  broadcasts_S2048x1_S2048x512 : S2048x1.Broadcasts S2048x512
  broadcasts_S1x512_S2048x512 : S1x512.Broadcasts S2048x512
  reduces_S2048x512_S2048 : S2048x512.Reduces [1] S2048
  reduces_S2048x1_S1 : S2048x1.Reduces [0] S1
  shapeCasts_S1_S1x1 : S1.ShapeCasts S1x1
  inpos_S1x1_p0_0 : ∀ a, (![0, 0] : Fin 2 → Nat) a < S1x1.size a
  inb_S2048x512_S2048x512_0_0 : ∀ a, (![0, 0] : Fin 2 → Nat) a + S2048x512.size a ≤ S2048x512.size a
  h_S2048x512 : 0 < S2048x512.numel
  inb_S128_S128_0 : ∀ a, (![0] : Fin 1 → Nat) a + S128.size a ≤ S128.size a
  h_S128 : 0 < S128.numel
  shapeCasts_S8192_S64x128 : S8192.ShapeCasts S64x128
  slices_S64x128_S64x1_0_0 : S64x128.Slices ![0, 0] S64x1
  shapeCasts_S64x1_S64 : S64x1.ShapeCasts S64
  reducesTo_S64_S_d0 : S64.ReducesTo [0] S_
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S8192.size a
  hwx0_4 : ∀ i : grid0.Coords, EltTy.bits .f32 = 32 ∨ (Rect.block (s := S8192) S128.size (cc0_transform_4 i) (hinb0_4 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S_ : Shape := ⟨0, ![]⟩
abbrev S131072 : Shape := ⟨1, ![131072]⟩
abbrev S131072x1 : Shape := ⟨2, ![131072, 1]⟩
abbrev S512 : Shape := ⟨1, ![512]⟩
abbrev S128x512 : Shape := ⟨2, ![128, 512]⟩
abbrev S131072x512 : Shape := ⟨2, ![131072, 512]⟩
abbrev S1x512 : Shape := ⟨2, ![1, 512]⟩

abbrev nBuf : Space → Nat
  | .hbm => 55
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S131072x128, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x128, .f32⟩
  | .hbm, ⟨7, _⟩ => ⟨S_, .f32⟩
  | .hbm, ⟨8, _⟩ => ⟨S512, .f32⟩
  | .hbm, ⟨9, _⟩ => ⟨S128x512, .f32⟩
  | .hbm, ⟨10, _⟩ => ⟨S131072x512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S_, .f32⟩
  | .hbm, ⟨24, _⟩ => ⟨S131072x512, .f32⟩
  | .hbm, ⟨25, _⟩ => ⟨S131072x512, .f32⟩
  | .hbm, ⟨26, _⟩ => ⟨S_, .f32⟩
  | .hbm, ⟨27, _⟩ => ⟨S131072, .f32⟩
  | .hbm, ⟨28, _⟩ => ⟨S131072x1, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S131072x512, .f32⟩
  | .hbm, ⟨33, _⟩ => ⟨S131072x512, .f32⟩
  | .hbm, ⟨34, _⟩ => ⟨S_, .f32⟩
  | .hbm, ⟨35, _⟩ => ⟨S131072, .f32⟩
  | .hbm, ⟨36, _⟩ => ⟨S_, .f32⟩
  | .hbm, ⟨37, _⟩ => ⟨S131072, .f32⟩
  | .hbm, ⟨38, _⟩ => ⟨S131072, .f32⟩
  | .hbm, ⟨39, _⟩ => ⟨S131072x1, .f32⟩
  | .hbm, ⟨40, _⟩ => ⟨S131072x512, .f32⟩
  | .hbm, ⟨41, _⟩ => ⟨S131072x512, .f32⟩
  | .hbm, ⟨42, _⟩ => ⟨S131072x512, .f32⟩
  | .hbm, ⟨43, _⟩ => ⟨S_, .f32⟩
  | .hbm, ⟨44, _⟩ => ⟨S131072, .f32⟩
  | .hbm, ⟨45, _⟩ => ⟨S131072x1, .f32⟩
  | .hbm, ⟨46, _⟩ => ⟨S131072x512, .f32⟩
  | .hbm, ⟨47, _⟩ => ⟨S131072x512, .f32⟩
  | .hbm, ⟨48, _⟩ => ⟨S131072x512, .f32⟩
  | .hbm, ⟨49, _⟩ => ⟨S_, .f32⟩
  | .hbm, ⟨50, _⟩ => ⟨S131072, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S512x128_S512_d1 : S512x128.ReducesTo [1] S512
  transposes_S512x128_S128x512_1_0 : S512x128.Transposes [1, 0] S128x512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  reducesTo_S131072x512_S131072_d1 : S131072x512.ReducesTo [1] S131072
  bcast_S_S131072 : S_.BroadcastsInDim S131072 (![] : Fin 0 → Fin S131072.rank)
  reducesTo_S131072_S_d0 : S131072.ReducesTo [0] S_
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.Spec.lean ====
/-
  Soft assignment of points to centres, as functions on the extended reals.

  A point x (a row of X, 128 coordinates) is at distance
      dist n m = sqrt (max (|x_n|² + |c_m|² - 2 <x_n, c_m>, 0))
  from centre c_m (a row of C).  The assignment weights of point n are a softmax of -10 · dist n · over the
  512 centres.  A softmax may be stabilised by any per-row shift; two shifts are written here:

    * by the row's LEAST distance:     exponent  -10 · (d m - min d);
    * by the row's GREATEST distance, followed by the usual subtraction of the greatest exponent:
                                        exponent  -10 · (d m - max d) - max_j (-10 · (d j - max d)).

  On real distances the two exponents are the same number, since multiplying by -10 turns the greatest
  distance into the least exponent.  The loss is the mean over the points of  ∑ m, weight n m · dist n m.

  Literal words of single-precision constants are kept as words: the same word stands on both sides of every
  comparison made with these definitions.
-/
import Idealize.ShloMosaic.PureOps.Ideal

noncomputable section

open scoped BigOperators

namespace Cert.SoftAssign

open Idealize.ShloMosaic

/-- 2, -10, the number of points 131072, and the two infinities, as single-precision words. -/
abbrev two : EReal := Ideal.ofBits .f32 0x40000000#32
abbrev negTen : EReal := Ideal.ofBits .f32 0xC1200000#32
abbrev count : EReal := Ideal.ofBits .f32 0x48000000#32
abbrev negInf : EReal := Ideal.ofBits .f32 0xFF800000#32
abbrev posInf : EReal := Ideal.ofBits .f32 0x7F800000#32

section Row
variable {ι : Type} [Fintype ι]

/-- The exponent of entry `m` when the row `d` is shifted by its least entry (folded from +∞). -/
def shiftMin (d : ι → EReal) (m : ι) : EReal :=
  negTen * (d m - (Finset.univ : Finset ι).fold min posInf d)

/-- The exponent of entry `m` when the row `d` is shifted by its greatest entry (folded from -∞) and the greatest of
    the resulting exponents (again folded from -∞, and once more compared with -∞) is then subtracted. -/
def shiftMax (d : ι → EReal) (m : ι) : EReal :=
  negTen * (d m - (Finset.univ : Finset ι).fold max negInf d)
    - max negInf ((Finset.univ : Finset ι).fold max negInf
        fun j => negTen * (d j - (Finset.univ : Finset ι).fold max negInf d))

/-- The softmax weight of entry `m` for exponents `a`: exp (a m) over the row's sum of exponentials. -/
def softOf (a : ι → EReal) (m : ι) : EReal :=
  Ideal.div (Ideal.exp (a m)) (∑ j, Ideal.exp (a j))

end Row

/-- The squared length of row `i`. -/
def sqNorm {n : ℕ} (A : Fin n → Fin 128 → EReal) (i : Fin n) : EReal := ∑ k, A i k * A i k

/-- The inner product of point `n` and centre `m`. -/
def dotRow (X : Fin 131072 → Fin 128 → EReal) (C : Fin 512 → Fin 128 → EReal) (n : Fin 131072) (m : Fin 512) : EReal :=
  ∑ k, X n k * C m k

/-- The distance of point `n` from centre `m`. -/
def dist (X : Fin 131072 → Fin 128 → EReal) (C : Fin 512 → Fin 128 → EReal) (n : Fin 131072) (m : Fin 512) : EReal :=
  Ideal.sqrt (max ((sqNorm X n + sqNorm C m) - two * dotRow X C n m) 0)

/-- The assignment weights, the row shifted by its least distance. -/
def assignMin (X : Fin 131072 → Fin 128 → EReal) (C : Fin 512 → Fin 128 → EReal) (n : Fin 131072) (m : Fin 512) : EReal :=
  softOf (shiftMin (dist X C n)) m

/-- The assignment weights, the row shifted by its greatest distance and then by its greatest exponent. -/
def assignMax (X : Fin 131072 → Fin 128 → EReal) (C : Fin 512 → Fin 128 → EReal) (n : Fin 131072) (m : Fin 512) : EReal :=
  softOf (shiftMax (dist X C n)) m

/-- The mean over the points of the weighted distances, for weights `P`. -/
def meanLoss (P : Fin 131072 → Fin 512 → EReal) (X : Fin 131072 → Fin 128 → EReal) (C : Fin 512 → Fin 128 → EReal) : EReal :=
  Ideal.div (∑ n, ∑ m, P n m * dist X C n m) count

end Cert.SoftAssign

end
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.LibColumnSums.lean ====
/-
  Column sums of a matrix read at an index.

  A float sum of an `[a, b]` matrix along its rows (axis 0) is a vector of length `b` whose entry `q` is, at
  the exact values, the sum over the row coordinate `p` of the matrix's entry `(p, q)`: the reduced index with the
  row coordinate put back is `(p, q)`.
-/
import Idealize.ShloMosaic.Lib.ValueIdx
import Idealize.ShloMosaic.PureOps.Ideal.Laws

noncomputable section

open scoped BigOperators

namespace Cert.LibColumnSums

open Idealize.ShloMosaic Idealize.ShloMosaic.ValueIdx

/-- The source index over column `q` with row `p` inserted is `(p, q)`. -/
theorem lift_ix1 {a b : ℕ} (h : (⟨2, ![a, b]⟩ : Shape).Reduces [0] ⟨1, ![b]⟩) (q : Fin b) (p : Fin a) :
    h.lift (ix1 q) p = ix2 p q := by
  funext ax
  match ax with
  | ⟨0, _⟩ => rfl
  | ⟨1, _⟩ => rfl

/-- A float sum over the rows of an `[a, b]` matrix is, at column `q`, the sum over the row coordinate. -/
theorem multiReduction_add_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) :=
  (Ideal.multiReduction_add_single src acc h hφ hacc (ix1 q)).trans
    (Finset.sum_congr rfl fun p _ => congrArg src (lift_ix1 h q p))

end Cert.LibColumnSums

end
-- ==== Proof.LibLaneMin.lean ====
/-
  The least entry along the lanes of a matrix, read at an index.

  A float `minimumf` reduction of an `[a, b]` matrix along its lanes (axis 1) is a vector of length `a` whose entry
  `p` is, at the exact values, the fold of `min` over the lane coordinate `c` of the matrix's entry `(p, c)`,
  started from the value of the accumulator's word (the word of +∞ for a row minimum): the reduced index with the lane
  coordinate put back is `(p, c)`.  It is the `min` twin of the lane sum and lane maximum read at an index.
-/
import Idealize.ShloMosaic.Lib.ValueIdx
import Idealize.ShloMosaic.PureOps.Ideal.Laws

noncomputable section

namespace Cert.LibLaneMin

open Idealize.ShloMosaic Idealize.ShloMosaic.ValueIdx

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A least entry along the lanes of an `[a, b]` matrix is, at row `p`, the fold of `min` from the accumulator's
    value over the lane coordinate. -/
theorem multiReduction_minimumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun c => src (ix2 p c)) := by
  rw [multiReduction_minimumf_eq_fold]
  refine (h.fold_filter_drop_single _ _ src (ix1 p)).trans ?_
  have e : (src ∘ h.lift (ix1 p)) = fun c : Fin b => src (ix2 p c) :=
    funext fun c => congrArg src (lift_ix1 h p c)
  show (Finset.univ : Finset (Fin b)).fold min (Ideal.ofBits φ acc) (src ∘ h.lift (ix1 p)) = _
  rw [e]
  rfl

end Cert.LibLaneMin

end
-- ==== Proof.KernelTile.lean ====
/-
  One tile of the kernel, read entry by entry.

  At a grid point the body holds 2048 points (the rows of `x0`), the 512 centres transposed (the columns of `x1`)
  and the centres' squared lengths (the one row of `x2`).  Entry (r, m) of its distance tile is
      sqrt (max ((∑ k, x0 (r,k)²  +  x2 (0,m))  -  2 · ∑ k, x0 (r,k) · x1 (k,m), 0)) · 1,
  the weights are the softmax of -10 · (distance - the row's least distance) along each row, and every lane of the
  loss block is the tile's sum of weight · distance over its 2048 · 512 entries.
-/
import proofs.«118801_j2138893713645_2_alg».proof.Proof.Gen.KernelIdeal.Skeleton
import proofs.«118801_j2138893713645_2_alg».proof.Proof.Spec
import proofs.«118801_j2138893713645_2_alg».proof.Proof.LibIx2
import proofs.«118801_j2138893713645_2_alg».proof.Proof.LibColumnSums
import proofs.«118801_j2138893713645_2_alg».proof.Proof.LibLaneMin
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SoftAssign.Tile

open Idealize.ShloMosaic Idealize.ShloMosaic.ValueIdx Cert.KernelIdeal Cert.KernelIdeal.Gen Cert.SoftAssign

/-! ## The layout steps around a lane reduction -/

/-- A lane sum kept as a column and repeated along the lanes reads, at (r, m), the sum of row r. -/
theorem laneSum_repeated {b : ℕ} (src : FVec Ideal ⟨2, ![2048, b]⟩ .f32)
    (h1 : (⟨2, ![2048, b]⟩ : Shape).Reduces [1] ⟨1, ![2048]⟩) (hφ : FKind.Formats .f32)
    (hacc : (0x00000000#32 : BitVec 32) = FKind.add.neutral .f32 hφ)
    (h2 : (⟨1, ![2048]⟩ : Shape).ShapeCasts ⟨2, ![2048, 1]⟩) (h3 : (⟨2, ![2048, 1]⟩ : Shape).Broadcasts ⟨2, ![2048, 512]⟩)
    (r : Fin 2048) (m : Fin 512) :
    broadcastTo ⟨2, ![2048, 512]⟩ (shapeCast ⟨2, ![2048, 1]⟩
        (multiReduction .add [1] ⟨1, ![2048]⟩ src 0x00000000#32 h1 hφ hacc) h2) h3 (ix2 r m)
      = ∑ k : Fin b, src (ix2 r k) :=
  (Cert.LibIx2.broadcastTo_a1_ab_apply _ h3 r m).trans
    ((Cert.LibIx2.shapeCast_a_a1_apply _ h2 r 0).trans
      (Cert.LibIx2.multiReduction_add_lanes_apply src _ h1 hφ hacc r))

/-- A least lane entry kept as a column and repeated along the lanes reads, at (r, m), the least entry of row r. -/
theorem laneMin_repeated (src : FVec Ideal ⟨2, ![2048, 512]⟩ .f32)
    (h1 : (⟨2, ![2048, 512]⟩ : Shape).Reduces [1] ⟨1, ![2048]⟩) (hφ : FKind.Formats .f32)
    (hacc : (0x7F800000#32 : BitVec 32) = FKind.minimumf.neutral .f32 hφ)
    (h2 : (⟨1, ![2048]⟩ : Shape).ShapeCasts ⟨2, ![2048, 1]⟩) (h3 : (⟨2, ![2048, 1]⟩ : Shape).Broadcasts ⟨2, ![2048, 512]⟩)
    (r : Fin 2048) (m : Fin 512) :
    broadcastTo ⟨2, ![2048, 512]⟩ (shapeCast ⟨2, ![2048, 1]⟩
        (multiReduction .minimumf [1] ⟨1, ![2048]⟩ src 0x7F800000#32 h1 hφ hacc) h2) h3 (ix2 r m)
      = (Finset.univ : Finset (Fin 512)).fold min posInf (fun c => src (ix2 r c)) :=
  (Cert.LibIx2.broadcastTo_a1_ab_apply _ h3 r m).trans
    ((Cert.LibIx2.shapeCast_a_a1_apply _ h2 r 0).trans
      (Cert.LibLaneMin.multiReduction_minimumf_lanes_apply src _ h1 hφ hacc r))

/-! ## The distance tile -/

section Payload
variable (x0 : FVec Ideal S2048x128 .f32) (x1 : FVec Ideal S128x512 .bf16) (x2 : FVec Ideal S1x512 .f32)

/-- Entry (r, m) of the distance tile. -/
def tileDist (r : Fin 2048) (m : Fin 512) : EReal :=
  Ideal.sqrt (max (((∑ k : Fin 128, x0 (ix2 r k) * x0 (ix2 r k)) + x2 (ix2 (0 : Fin 1) m))
      - two * ∑ k : Fin 128, x0 (ix2 r k) * x1 (ix2 k m)) (Ideal.ofBits .f32 0x00000000#32))
    * Ideal.ofBits .f32 0x3F800000#32

/-- The tile's pointwise steps, read at an index. -/
theorem dist_pointwise (A B MM : FVec Ideal S2048x512 .f32) (i : S2048x512.Idx) :
    mulf (sqrt (maximumf (subf (addf A B) (mulf (broadcast S2048x512 (Scalar.ofBits (F := Ideal) .f32 0x40000000#32)) MM))
      (broadcast S2048x512 (Scalar.ofBits (F := Ideal) .f32 0x00000000#32))))
        (broadcast S2048x512 (Scalar.ofBits (F := Ideal) .f32 0x3F800000#32)) i
      = Ideal.sqrt (max ((A i + B i) - two * MM i) (Ideal.ofBits .f32 0x00000000#32)) * Ideal.ofBits .f32 0x3F800000#32 := rfl

/-- The product of the points by the transposed centres, at (r, m). -/
theorem cross_apply (r : Fin 2048) (m : Fin 512) :
    matmul dot_S2048x128_S128x512_S2048x512_1_0_0_1_n_n none (truncf .bf16 x0 bitsLt_bf16_f32)
        (shapeCast S128x512 x1 shapeCasts_S128x512_S128x512) (constant (F := Ideal) S2048x512 .f32 0x00000000#32) (ix2 r m)
      = ∑ k : Fin 128, x0 (ix2 r k) * x1 (ix2 k m) := by
  rw [shapeCast_self]
  exact Cert.LibIx2.matmul_zero_ix2_apply dot_S2048x128_S128x512_S2048x512_1_0_0_1_n_n rfl rfl rfl rfl rfl rfl rfl rfl none
    (truncf .bf16 x0 bitsLt_bf16_f32) x1 r m

/-- The distance payload at (r, m). -/
theorem pay1_apply (r : Fin 2048) (m : Fin 512) : k0_pay1 (F := Ideal) x0 x1 x2 (ix2 r m) = tileDist x0 x1 x2 r m := by
  unfold k0_pay1 tileDist
  refine (dist_pointwise _ _ _ (ix2 r m)).trans ?_
  have hA := laneSum_repeated (mulf x0 x0) reduces_S2048x128_S2048 (.inl rfl) rfl shapeCasts_S2048_S2048x1
    broadcasts_S2048x1_S2048x512 r m
  have hB : broadcastTo S2048x512 (shapeCast S1x512 x2 shapeCasts_S1x512_S1x512) broadcasts_S1x512_S2048x512 (ix2 r m)
      = x2 (ix2 (0 : Fin 1) m) := by
    rw [shapeCast_self]; exact broadcastTo_1b_ab_apply x2 broadcasts_S1x512_S2048x512 r m
  have hM := cross_apply x0 x1 r m
  rw [hA, hB, hM]
  rfl

/-! ## The weights and the loss lane -/

/-- The exponentials of a distance tile `P`, each row shifted by its least entry. -/
def expTile (P : FVec Ideal S2048x512 .f32) : FVec Ideal S2048x512 .f32 :=
  exp (mulf (broadcast S2048x512 (Scalar.ofBits (F := Ideal) .f32 0xC1200000#32))
    (subf P (broadcastTo S2048x512 (shapeCast S2048x1
      (multiReduction .minimumf [1] S2048 P 0x7F800000#32 reduces_S2048x512_S2048 (.inl rfl) rfl)
      shapeCasts_S2048_S2048x1) broadcasts_S2048x1_S2048x512)))

/-- Entry (r, j) of the exponentials: exp of the exponent shifted by the row's least distance. -/
theorem expTile_apply (P : FVec Ideal S2048x512 .f32) (r : Fin 2048) (j : Fin 512) :
    expTile P (ix2 r j) = Ideal.exp (shiftMin (fun c => P (ix2 r c)) j) :=
  congrArg (fun t => Ideal.exp (negTen * (P (ix2 r j) - t)))
    (laneMin_repeated P reduces_S2048x512_S2048 (.inl rfl) rfl shapeCasts_S2048_S2048x1 broadcasts_S2048x1_S2048x512 r j)

/-- The weights payload is the exponentials over their row sums. -/
theorem pay2_eq : k0_pay2 (F := Ideal) x0 x1 x2
    = divf (expTile (k0_pay1 (F := Ideal) x0 x1 x2)) (broadcastTo S2048x512 (shapeCast S2048x1
        (multiReduction .add [1] S2048 (expTile (k0_pay1 (F := Ideal) x0 x1 x2)) 0x00000000#32 reduces_S2048x512_S2048 (.inl rfl) rfl)
        shapeCasts_S2048_S2048x1) broadcasts_S2048x1_S2048x512) := rfl

/-- The weights payload at (r, m): the softmax along row r of the distance tile, shifted by the row's least distance. -/
theorem pay2_apply (r : Fin 2048) (m : Fin 512) :
    k0_pay2 (F := Ideal) x0 x1 x2 (ix2 r m) = softOf (shiftMin (fun c => k0_pay1 (F := Ideal) x0 x1 x2 (ix2 r c))) m := by
  rw [pay2_eq]
  generalize k0_pay1 (F := Ideal) x0 x1 x2 = P
  show Ideal.div (expTile P (ix2 r m)) _ = _
  unfold softOf
  rw [laneSum_repeated (expTile P) reduces_S2048x512_S2048 (.inl rfl) rfl shapeCasts_S2048_S2048x1 broadcasts_S2048x1_S2048x512 r m,
    expTile_apply P r m]
  exact congrArg (Ideal.div _) (Finset.sum_congr rfl fun j _ => expTile_apply P r j)

/-- The loss payload as the tile's sum kept as one scalar and repeated over the 128 lanes. -/
theorem pay3_eq : k0_pay3 (F := Ideal) x0 x1 x2
    = broadcast S128 (extractAt ![0, 0] (shapeCast S1x1
        (multiReduction .add [0] S1 (shapeCast S2048x1
          (multiReduction .add [1] S2048 (mulf (k0_pay2 (F := Ideal) x0 x1 x2) (k0_pay1 (F := Ideal) x0 x1 x2)) 0x00000000#32
            reduces_S2048x512_S2048 (.inl rfl) rfl) shapeCasts_S2048_S2048x1) 0x00000000#32 reduces_S2048x1_S1 (.inl rfl) rfl)
        shapeCasts_S1_S1x1) inpos_S1x1_p0_0) := rfl

/-- Every lane of the loss block is the tile's sum of weight · distance. -/
theorem pay3_apply (l : Fin 128) :
    k0_pay3 (F := Ideal) x0 x1 x2 (ix1 l)
      = ∑ r : Fin 2048, ∑ m : Fin 512, k0_pay2 (F := Ideal) x0 x1 x2 (ix2 r m) * k0_pay1 (F := Ideal) x0 x1 x2 (ix2 r m) := by
  rw [pay3_eq]
  generalize k0_pay1 (F := Ideal) x0 x1 x2 = P
  generalize k0_pay2 (F := Ideal) x0 x1 x2 = Q
  show shapeCast S1x1 _ shapeCasts_S1_S1x1 (fun a => ⟨(![0, 0] : Fin 2 → Nat) a, inpos_S1x1_p0_0 a⟩) = _
  have e00 : (fun a => (⟨(![0, 0] : Fin 2 → Nat) a, inpos_S1x1_p0_0 a⟩ : Fin (S1x1.size a))) = ix2 (0 : Fin 1) (0 : Fin 1) :=
    funext fun a => Fin.ext (by match a with | ⟨0, _⟩ => rfl | ⟨1, _⟩ => rfl)
  rw [e00]
  refine (Cert.LibIx2.shapeCast_a_a1_apply _ shapeCasts_S1_S1x1 (0 : Fin 1) (0 : Fin 1)).trans ?_
  refine (Cert.LibColumnSums.multiReduction_add_rows_apply _ _ reduces_S2048x1_S1 (.inl rfl) rfl (0 : Fin 1)).trans ?_
  refine Finset.sum_congr rfl fun r _ => ?_
  refine (Cert.LibIx2.shapeCast_a_a1_apply _ shapeCasts_S2048_S2048x1 r (0 : Fin 1)).trans ?_
  exact Cert.LibIx2.multiReduction_add_lanes_apply (mulf Q P) _ reduces_S2048x512_S2048 (.inl rfl) rfl r

end Payload

end Cert.SoftAssign.Tile

end
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.ShiftLaw.lean ====
/-
  The two stabilising shifts of a softmax of -10 · distance give the same exponents.

  A row d of distances is shifted either by its least entry, giving the exponent  -10 · (d m - min d), or by its
  greatest entry and then by the greatest of the resulting exponents, giving
      -10 · (d m - max d) - max_j (-10 · (d j - max d)).
  When every entry of the row is a real number, write μ for the least and M for the greatest entry.  Multiplying by the
  negative number -10 reverses the order, so the greatest of the numbers -10 · (d j - M) is -10 · (μ - M): every
  d j is at least μ, and the value is attained at an entry equal to μ.  Hence the second exponent is
      -10 · (d m - M) - (-10) · (μ - M) = -10 · (d m - μ),
  which is the first.  On the extended reals this moves a factor across a difference, so it needs the entries to be
  real numbers; at an infinite entry it fails.

  The distances are real numbers whenever the coordinates are: sums, products and differences of real numbers are real,
  the larger of a real number and zero is a real number that is not negative, and the square root of such a number is
  a real number.  So the two assignment weights agree on inputs with real coordinates.

  The single-precision words of 2, -10, 1 and the two infinities are read as the numbers they denote.
-/
import proofs.«118801_j2138893713645_2_alg».proof.Proof.Spec
import proofs.«118801_j2138893713645_2_alg».proof.Proof.LibReal
import Idealize.ShloMosaic.PureOps.Ideal.Laws

noncomputable section
open scoped BigOperators
namespace Cert.SoftAssign
open Idealize.ShloMosaic Cert.LibReal

/-! ## The words of the constants -/

theorem negTen_eq : negTen = ((-10 : ℝ) : EReal) := by
  simp [Ideal.ofBits, Ideal.ieee, -EReal.coe_mul]; norm_num

theorem two_eq : two = ((2 : ℝ) : EReal) := by
  simp [Ideal.ofBits, Ideal.ieee, -EReal.coe_mul]; norm_num

theorem negInf_eq : negInf = (⊥ : EReal) := by
  simp [Ideal.ofBits, Ideal.ieee]

theorem posInf_eq : posInf = (⊤ : EReal) := by
  simp [Ideal.ofBits, Ideal.ieee]

theorem one_eq : Ideal.ofBits .f32 0x3F800000#32 = (1 : EReal) := by
  simp [Ideal.ofBits, Ideal.ieee, -EReal.coe_mul]; norm_num

/-! ## The least and the greatest entry of a row of real numbers -/

section Row
variable {ι : Type} [Fintype ι] [Nonempty ι]

/-- The least entry of a row of real numbers, folded from +∞, is the least of the real numbers. -/
theorem fold_min_coe (r : ι → ℝ) :
    (Finset.univ : Finset ι).fold min (⊤ : EReal) (fun j => (r j : EReal))
      = ((Finset.univ.inf' Finset.univ_nonempty r : ℝ) : EReal) := by
  apply le_antisymm
  · obtain ⟨j, hj, e⟩ := Finset.exists_mem_eq_inf' (Finset.univ_nonempty (α := ι)) r
    exact (Finset.fold_min_le _).mpr (Or.inr ⟨j, hj, EReal.coe_le_coe_iff.mpr e.ge⟩)
  · exact (Finset.le_fold_min _).mpr ⟨le_top, fun j hj => EReal.coe_le_coe_iff.mpr (Finset.inf'_le r hj)⟩

/-- The greatest entry of a row of real numbers, folded from -∞, is the greatest of the real numbers. -/
theorem fold_max_coe (r : ι → ℝ) :
    (Finset.univ : Finset ι).fold max (⊥ : EReal) (fun j => (r j : EReal))
      = ((Finset.univ.sup' Finset.univ_nonempty r : ℝ) : EReal) := by
  apply le_antisymm
  · exact (Finset.fold_max_le _).mpr ⟨bot_le, fun j hj => EReal.coe_le_coe_iff.mpr (Finset.le_sup' r hj)⟩
  · obtain ⟨j, hj, e⟩ := Finset.exists_mem_eq_sup' (Finset.univ_nonempty (α := ι)) r
    exact (Finset.le_fold_max _).mpr (Or.inr ⟨j, hj, EReal.coe_le_coe_iff.mpr e.le⟩)

/-- Multiplying by -10 reverses the order: the greatest of -10 · (r j - M) is -10 · (μ - M), μ the least entry. -/
theorem sup'_negTen_mul (r : ι → ℝ) (M : ℝ) :
    Finset.univ.sup' Finset.univ_nonempty (fun j => -10 * (r j - M))
      = -10 * (Finset.univ.inf' Finset.univ_nonempty r - M) := by
  apply le_antisymm
  · refine Finset.sup'_le _ _ fun j hj => ?_
    have h : Finset.univ.inf' Finset.univ_nonempty r ≤ r j := Finset.inf'_le r hj
    linarith
  · obtain ⟨j, hj, e⟩ := Finset.exists_mem_eq_inf' (Finset.univ_nonempty (α := ι)) r
    rw [e]
    exact Finset.le_sup' (fun j => -10 * (r j - M)) hj

/-- The two shifts give the same exponent on a row of real numbers, written as a row of real numbers. -/
theorem shiftMax_coe_eq_shiftMin_coe (r : ι → ℝ) (m : ι) :
    shiftMax (fun j => (r j : EReal)) m = shiftMin (fun j => (r j : EReal)) m := by
  unfold shiftMax shiftMin
  rw [negTen_eq, negInf_eq, posInf_eq, fold_min_coe, fold_max_coe]
  have inner : (fun j => ((-10 : ℝ) : EReal) * ((r j : EReal) - ((Finset.univ.sup' Finset.univ_nonempty r : ℝ) : EReal)))
      = fun j => ((-10 * (r j - Finset.univ.sup' Finset.univ_nonempty r) : ℝ) : EReal) := by
    funext j
    rw [← EReal.coe_sub, ← EReal.coe_mul]
  rw [inner, fold_max_coe, sup'_negTen_mul, max_eq_right bot_le,
    ← EReal.coe_sub, ← EReal.coe_mul, ← EReal.coe_sub, ← EReal.coe_sub, ← EReal.coe_mul]
  congr 1
  ring

end Row

/-- the two shifts give the same exponents on a row of real numbers -/
theorem shiftMax_eq_shiftMin {ι : Type} [Fintype ι] [Nonempty ι] (d : ι → EReal) (hd : ∀ j, IsReal (d j)) :
    shiftMax d = shiftMin d := by
  choose r hr using hd
  obtain rfl : d = fun j => (r j : EReal) := funext hr
  funext m
  exact shiftMax_coe_eq_shiftMin_coe r m

/-! ## The distances are real numbers -/

/-- The square root of the larger of a real number and zero is a real number. -/
theorem isReal_sqrt_max_zero {a : EReal} (ha : IsReal a) : IsReal (Ideal.sqrt (max a 0)) := by
  obtain ⟨x, rfl⟩ := ha
  have h : max (x : EReal) 0 = ((Max.max x 0 : ℝ) : EReal) := by rw [coe_max, EReal.coe_zero]
  rw [h]
  show IsReal (if Max.max x 0 < 0 then ⊥ else ((Real.sqrt (Max.max x 0) : ℝ) : EReal))
  rw [if_neg (not_lt.mpr (le_max_right x 0))]
  exact isReal_coe _

/-- The squared length of a row of real numbers is a real number. -/
theorem isReal_sqNorm {n : ℕ} (A : Fin n → Fin 128 → EReal) (hA : ∀ i k, IsReal (A i k)) (i : Fin n) :
    IsReal (sqNorm A i) :=
  IsReal.sum Finset.univ (fun k => A i k * A i k) fun k _ => (hA i k).mul (hA i k)

/-- The inner product of two rows of real numbers is a real number. -/
theorem isReal_dotRow (X : Fin 131072 → Fin 128 → EReal) (C : Fin 512 → Fin 128 → EReal)
    (hX : ∀ n k, IsReal (X n k)) (hC : ∀ m k, IsReal (C m k)) (n : Fin 131072) (m : Fin 512) :
    IsReal (dotRow X C n m) :=
  IsReal.sum Finset.univ (fun k => X n k * C m k) fun k _ => (hX n k).mul (hC m k)

/-- a distance between points with real coordinates is a real number -/
theorem isReal_dist (X : Fin 131072 → Fin 128 → EReal) (C : Fin 512 → Fin 128 → EReal)
    (hX : ∀ n k, IsReal (X n k)) (hC : ∀ m k, IsReal (C m k)) (n : Fin 131072) (m : Fin 512) :
    IsReal (dist X C n m) := by
  have h2 : IsReal two := by rw [two_eq]; exact isReal_coe 2
  exact isReal_sqrt_max_zero
    (((isReal_sqNorm X hX n).add (isReal_sqNorm C hC m)).sub (h2.mul (isReal_dotRow X C hX hC n m)))

/-- so the two assignment weights agree on real inputs -/
theorem assignMax_eq_assignMin (X : Fin 131072 → Fin 128 → EReal) (C : Fin 512 → Fin 128 → EReal)
    (hX : ∀ n k, IsReal (X n k)) (hC : ∀ m k, IsReal (C m k)) : assignMax X C = assignMin X C := by
  haveI : Nonempty (Fin 512) := ⟨⟨0, by norm_num⟩⟩
  funext n m
  unfold assignMax assignMin
  rw [shiftMax_eq_shiftMin (dist X C n) fun j => isReal_dist X C hX hC n j]

end Cert.SoftAssign
end
-- ==== Proof.KernelTileSpec.lean ====
/-
  One tile of the kernel against the specification.

  A tile holds 2048 points, the 512 centres transposed, and one row of the centres' squared lengths.  When its three
  blocks hold what they are meant to hold — the block x0 the rows  row r  of the points X, the block x1 the centres C
  transposed, and the block x2 the numbers 0 + |c_j|² — every entry of the tile reads as the specification says:

    * entry (r, m) of the distance tile is  dist X C (row r) m:  the two sums are the squared length of the point and
      its inner product with the centre, the added 0 disappears, and the final factor is 1;
    * entry (r, m) of the weights is the softmax along the row of -10 · (distance - the row's least distance), which
      is  assignMin X C (row r) m,  because the row of the distance tile is the row  dist X C (row r);
    * every lane of the loss block is the tile's sum of  assignMin · dist  over its 2048 · 512 entries.

  The two arrays computed before the kernel are read at an index: the centres transposed, at (k, j), is the centres at
  (j, k) (narrowing the format changes nothing on the extended reals); the row of squared lengths, at (0, j), is the
  initial value 0 plus the sum over the 128 coordinates of the squares of centre j.
-/
import proofs.«118801_j2138893713645_2_alg».proof.Proof.KernelTile
import proofs.«118801_j2138893713645_2_alg».proof.Proof.ShiftLaw
import Idealize.ShloMosaic.Lib.ValueLayout

noncomputable section
open scoped BigOperators
namespace Cert.SoftAssign.Tile
open Idealize.ShloMosaic Idealize.ShloMosaic.ValueIdx Cert.KernelIdeal Cert.KernelIdeal.Gen Cert.SoftAssign

section
variable (X : Fin 131072 → Fin 128 → EReal) (C : Fin 512 → Fin 128 → EReal) (row : Fin 2048 → Fin 131072)
  (x0 : FVec Ideal S2048x128 .f32) (x1 : FVec Ideal S128x512 .bf16) (x2 : FVec Ideal S1x512 .f32)
  (h0 : ∀ r k, x0 (ix2 r k) = X (row r) k) (h1 : ∀ k j, x1 (ix2 k j) = C j k)
  (h2 : ∀ j, x2 (ix2 (0 : Fin 1) j) = Ideal.ofBits .f32 0x00000000#32 + sqNorm C j)
include h0 h1 h2

/-- Entry (r, m) of the distance tile is the distance of point  row r  from centre m. -/
theorem tileDist_spec (r : Fin 2048) (m : Fin 512) : tileDist x0 x1 x2 r m = dist X C (row r) m := by
  unfold tileDist dist
  simp only [h0, h1, h2]
  rw [Ideal.ofBits_zero_f32, zero_add, one_eq, mul_one]
  rfl

/-- The distance payload at (r, m) is the distance of point  row r  from centre m. -/
theorem pay1_spec (r : Fin 2048) (m : Fin 512) : k0_pay1 (F := Ideal) x0 x1 x2 (ix2 r m) = dist X C (row r) m :=
  (pay1_apply x0 x1 x2 r m).trans (tileDist_spec X C row x0 x1 x2 h0 h1 h2 r m)

/-- The weights payload at (r, m) is the assignment weight of point  row r  to centre m. -/
theorem pay2_spec (r : Fin 2048) (m : Fin 512) : k0_pay2 (F := Ideal) x0 x1 x2 (ix2 r m) = assignMin X C (row r) m := by
  rw [pay2_apply]
  have e : (fun c => k0_pay1 (F := Ideal) x0 x1 x2 (ix2 r c)) = dist X C (row r) :=
    funext fun c => pay1_spec X C row x0 x1 x2 h0 h1 h2 r c
  rw [e]
  rfl

/-- Every lane of the loss block is the tile's sum of assignment weight · distance. -/
theorem pay3_spec (l : Fin 128) :
    k0_pay3 (F := Ideal) x0 x1 x2 (ix1 l) = ∑ r : Fin 2048, ∑ m : Fin 512, assignMin X C (row r) m * dist X C (row r) m := by
  rw [pay3_apply]
  refine Finset.sum_congr rfl fun r _ => Finset.sum_congr rfl fun m _ => ?_
  rw [pay2_spec X C row x0 x1 x2 h0 h1 h2 r m, pay1_spec X C row x0 x1 x2 h0 h1 h2 r m]

end

/-- The centres transposed (and narrowed), at (k, j), are the centres at (j, k). -/
theorem centresT_apply (a1 : FVec Ideal S512x128 .f32) (k : Fin 128) (j : Fin 512) :
    transpose S128x512 [1, 0] (truncf .bf16 a1 bitsLt_bf16_f32) transposes_S512x128_S128x512_1_0 (ix2 k j) = a1 (ix2 j k) :=
  (transpose_ix2_apply (truncf .bf16 a1 bitsLt_bf16_f32) transposes_S512x128_S128x512_1_0 k j).trans
    (truncf_apply a1 bitsLt_bf16_f32 (ix2 j k))

/-- The row of the centres' squared lengths, at (0, j): the initial value plus the sum of the squares of centre j. -/
theorem centreNorms_apply (a1 : FVec Ideal S512x128 .f32) (j : Fin 512) :
    broadcastInDim S1x512 ![1] bcast_S512_S1x512_1
        (Host.reduceAdd (F := Ideal) (mulf a1 a1) (constant (F := Ideal) S_ .f32 0x00000000#32) reducesTo_S512x128_S512_d1 h_S_) (ix2 (0 : Fin 1) j)
      = Ideal.ofBits .f32 0x00000000#32 + ∑ k : Fin 128, a1 (ix2 j k) * a1 (ix2 j k) := by
  refine (broadcastInDim_apply _ bcast_S512_S1x512_1 _ (ix2 (0 : Fin 1) j) (ix1 j) (fun a => match a with
    | ⟨0, _⟩ => by show j.val = if (512 : Nat) = 1 then 0 else j.val; rw [if_neg (by decide)])).trans ?_
  simp only [Host.reduceAdd, Ideal.hostReduceAdd_def]
  rw [Ideal.hostReduceAdd_single reducesTo_S512x128_S512_d1 (by decide)]
  show Ideal.ofBits .f32 0x00000000#32 + _ = _
  refine congrArg (_ + ·) (Finset.sum_congr rfl fun k _ => ?_)
  exact congrArg (mulf a1 a1) (funext fun a => Fin.ext (by match a with | ⟨0, _⟩ => rfl | ⟨1, _⟩ => rfl))

end Cert.SoftAssign.Tile
end
-- ==== Proof.LibBlockSplit.lean ====
/-
  Splitting a finite sum over `Fin N` into `k` consecutive blocks of `m` terms each, `N = k * m`.

  `sum_blocks` proves: for `f : Fin N → M` in an additive commutative monoid and any family
  `row : Fin k → Fin m → Fin N` with `(row b r).val = m * b + r`,
  `∑ i, f i = ∑ b : Fin k, ∑ r : Fin m, f (row b r)`.
  `sum_blocks_two` and `sum_blocks_four` write the outer sum out for `k = 2` and `k = 4`.
  The sums over the blocks stay symbolic throughout: nothing is expanded into its terms.
-/
import Mathlib.Algebra.BigOperators.Fin
import Mathlib.Logic.Equiv.Fin.Basic

open scoped BigOperators

namespace Cert.Lib

/-- A sum over `Fin N`, `N = k * m`, is the sum over the `k` blocks of the sums over each block's `m` rows. -/
theorem sum_blocks {M : Type*} [AddCommMonoid M] (k m N : Nat) (hN : k * m = N) (f : Fin N → M)
    (row : Fin k → Fin m → Fin N) (hrow : ∀ b r, (row b r).val = m * b.val + r.val) :
    ∑ i, f i = ∑ b : Fin k, ∑ r : Fin m, f (row b r) := by
  subst hN
  rw [← Equiv.sum_comp (finProdFinEquiv (m := k) (n := m)) f, Fintype.sum_prod_type]
  refine Finset.sum_congr rfl fun b _ => Finset.sum_congr rfl fun r _ => congrArg f ?_
  apply Fin.ext
  rw [hrow]
  simp [finProdFinEquiv, Nat.add_comm]

/-- Two blocks. -/
theorem sum_blocks_two {M : Type*} [AddCommMonoid M] (m N : Nat) (hN : 2 * m = N) (f : Fin N → M)
    (row : Fin 2 → Fin m → Fin N) (hrow : ∀ b r, (row b r).val = m * b.val + r.val) :
    ∑ i, f i = (∑ r : Fin m, f (row 0 r)) + ∑ r : Fin m, f (row 1 r) := by
  rw [sum_blocks 2 m N hN f row hrow, Fin.sum_univ_two]

/-- Four blocks. -/
theorem sum_blocks_four {M : Type*} [AddCommMonoid M] (m N : Nat) (hN : 4 * m = N) (f : Fin N → M)
    (row : Fin 4 → Fin m → Fin N) (hrow : ∀ b r, (row b r).val = m * b.val + r.val) :
    ∑ i, f i = (∑ r : Fin m, f (row 0 r)) + (∑ r : Fin m, f (row 1 r))
      + (∑ r : Fin m, f (row 2 r)) + ∑ r : Fin m, f (row 3 r) := by
  rw [sum_blocks 4 m N hN f row hrow, Fin.sum_univ_four]

end Cert.Lib
-- ==== Proof.KernelTail.lean ====
/-
  The host program that follows the kernel, as a function of the flat array of loss lanes, and the regrouping of a sum
  over the points into blocks of rows.

  The kernel leaves an array g of 8192 lanes, 64 blocks of 128 lanes.  The host program reads g as a 64 × 128 matrix
  (entry (b, l) is g at position 128 · b + l), keeps column 0, reads that 64 × 1 column as a vector of 64 entries
  (entry b is the column's entry (b, 0)), sums the vector from 0 and divides by the number of points.  So entry b of the
  vector is g at position 128 · b + 0, and when g holds L b throughout block b the result is (∑ b, L b) / 131072, the
  divisor kept as the single-precision word it is written as.

  The 131072 points are 64 blocks of 2048 consecutive rows, point 2048 · b + r being row r of block b; a sum over the
  points is the sum over the blocks of the sums over each block's rows.
-/
import proofs.«118801_j2138893713645_2_alg».proof.Proof.Spec
import proofs.«118801_j2138893713645_2_alg».proof.Proof.LibBlockSplit
import proofs.«118801_j2138893713645_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SoftAssign.Tail

open Idealize.ShloMosaic Idealize.ShloMosaic.ValueIdx Cert.KernelIdeal Cert.KernelIdeal.Gen Cert.SoftAssign

/-- Row r of block b, among the 131072 points. -/
def rowOf (b : Fin 64) (r : Fin 2048) : Fin 131072 := ⟨2048 * b.val + r.val, by have := b.isLt; have := r.isLt; omega⟩
/-- Lane l of block b of the flat array of loss lanes. -/
def laneOf (b : Fin 64) (l : Fin 128) : Fin 8192 := ⟨128 * b.val + l.val, by have := b.isLt; have := l.isLt; omega⟩

/-- A sum over the 131072 points, regrouped as 64 blocks of 2048 rows. -/
theorem sum_rows (f : Fin 131072 → EReal) : ∑ b : Fin 64, ∑ r : Fin 2048, f (rowOf b r) = ∑ n, f n :=
  (Cert.Lib.sum_blocks 64 2048 131072 (by norm_num) f rowOf (fun b r => rfl)).symm

/-- Entry k of the vector the host program sums: the flat array read as a 64 × 128 matrix, its column 0, read as a
    vector.  The positions agree: k · 1 + 0 = k in the column, and 128 · k + 0 = k · 128 + 0 in the matrix. -/
private theorem col0 (g : S8192.Idx → EReal) (k : Fin 64) :
    shapeCast S64 (extractStridedSlice S64x1 ![0, 0] (shapeCast S64x128 g shapeCasts_S8192_S64x128) slices_S64x128_S64x1_0_0)
        shapeCasts_S64x1_S64 (ix1 k)
      = g (ix1 (laneOf k 0)) := by
  refine (shapeCast_apply _ shapeCasts_S64x1_S64 (ix1 k) (ix2 k (0 : Fin 1)) ?_).trans ?_
  · rw [Shape.rowMajor_val_two, Shape.rowMajor_val_one]
    show k.val * 1 + 0 = k.val
    omega
  refine (extractStridedSlice_apply ![0, 0] _ slices_S64x128_S64x1_0_0 (ix2 k (0 : Fin 1)) (ix2 k (0 : Fin 128)) (fun a => by
    match a with
    | ⟨0, _⟩ => exact (Nat.zero_add _).symm
    | ⟨1, _⟩ => exact (Nat.zero_add _).symm)).trans ?_
  refine shapeCast_apply g shapeCasts_S8192_S64x128 (ix2 k (0 : Fin 128)) (ix1 (laneOf k 0)) ?_
  rw [Shape.rowMajor_val_one, Shape.rowMajor_val_two]
  show 128 * k.val + 0 = k.val * 128 + 0
  omega

/-- The indices of a vector of 64 entries are its 64 positions. -/
private def idxEquiv64 : S64.Idx ≃ Fin 64 where
  toFun j := j 0
  invFun k := ix1 k
  left_inv j := (eq_ix1 j).symm
  right_inv _ := rfl

/-- The sum of a vector of 64 entries to a scalar: the initial value plus the sum of the entries. -/
private theorem sum64 (x : S64.Idx → EReal) (init : S_.Idx → EReal) (j : S_.Idx) :
    Host.reduceAdd (F := Ideal) (φ := .f32) x init reducesTo_S64_S_d0 h_S_ j
      = init (Shape.Idx.first h_S_) + ∑ k : Fin 64, x (ix1 k) := by
  simp only [Host.reduceAdd, Ideal.hostReduceAdd_def]
  rw [Ideal.hostReduceAdd_total reducesTo_S64_S_d0 (fun b => b.elim0)]
  refine congrArg (_ + ·) (Fintype.sum_equiv idxEquiv64 _ _ fun i => ?_)
  exact congrArg x (eq_ix1 i)

/-- The host program on an array of lanes that holds L b throughout block b: the sum of the L b over 131072. -/
theorem tail_value (g : FVec Ideal S8192 .f32) (L : Fin 64 → EReal) (hg : ∀ (b : Fin 64) (l : Fin 128), g (ix1 (laneOf b l)) = L b) :
    Host.divf (F := Ideal)
      (Host.reduceAdd (F := Ideal)
        (shapeCast S64 (extractStridedSlice S64x1 ![0, 0] (shapeCast S64x128 g shapeCasts_S8192_S64x128) slices_S64x128_S64x1_0_0) shapeCasts_S64x1_S64)
        (constant (F := Ideal) S_ .f32 0x00000000#32) reducesTo_S64_S_d0 h_S_)
      (constant (F := Ideal) S_ .f32 0x48000000#32)
    = fun _ => Ideal.div (∑ b : Fin 64, L b) count := by
  funext i
  refine (congrArg (fun s => Ideal.div s count) (sum64 _ _ i)).trans ?_
  show Ideal.div (Ideal.ofBits .f32 0x00000000#32 + _) count = _
  rw [Ideal.ofBits_zero_f32, zero_add]
  refine congrArg (fun s => Ideal.div s count) (Finset.sum_congr rfl fun k _ => ?_)
  exact (col0 g k).trans (hg k 0)

end Cert.SoftAssign.Tail

end
-- ==== Proof.KernelArrays.lean ====
/-
  From the tiles to the two arrays the kernel writes.

  The grid has 64 points.  Point t reads rows 2048·t … 2048·t + 2047 of the points, the whole transposed
  centres and the whole row of the centres' squared lengths; it writes rows 2048·t … of the weights array and
  lanes 128·t … 128·t + 127 of the flat loss-lane array.  The blocks tile both arrays, so after the last point
  the weights array holds the assignment weights at every index, and the loss-lane array holds, throughout block
  t, the sum of weight · distance over the rows of tile t.
-/
import proofs.«118801_j2138893713645_2_alg».proof.Proof.Gen.KernelIdeal.Frame
import proofs.«118801_j2138893713645_2_alg».proof.Proof.KernelTileSpec
import proofs.«118801_j2138893713645_2_alg».proof.Proof.KernelTail
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.SoftAssign.Arrays

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The two argument arrays on core `c`. -/
abbrev pointsArr (c : Dev nD) : FVec Ideal S131072x128 .f32 := m ((c : Thread nD τ).loc main_arg0)
abbrev centresArr (c : Dev nD) : FVec Ideal S512x128 .f32 := m ((c : Thread nD τ).loc main_arg1)

/-! ## The arrays the host computes before the kernel -/

/-- The kernel's second operand is the centres transposed. -/
theorem V_centresT (c : Dev nD) :
    (V m c main_v4 : FVec Ideal S128x512 .bf16)
      = transpose S128x512 [1, 0] (truncf .bf16 (centresArr m c) bitsLt_bf16_f32) transposes_S512x128_S128x512_1_0 := by
  show StableHlo.after hostOps0 (fun b => m (c, b)) (Proc.devRef .tc main_v4) = _
  after_results

/-- The kernel's third operand is the row of the centres' squared lengths, each summed from the initial value 0. -/
theorem V_centreNorms (c : Dev nD) :
    (V m c main_v2 : FVec Ideal S1x512 .f32)
      = broadcastInDim S1x512 ![1] bcast_S512_S1x512_1
          (Host.reduceAdd (F := Ideal) (mulf (centresArr m c) (centresArr m c)) (constant (F := Ideal) S_ .f32 0x00000000#32)
            reducesTo_S512x128_S512_d1 h_S_) := by
  show StableHlo.after hostOps0 (fun b => m (c, b)) (Proc.devRef .tc main_v2) = _
  after_results

/-! ## The index maps, decided over the grid -/

theorem hz2 : (![0, 0] : Fin 2 → Nat) = fun _ => 0 := funext fun a => by fin_cases a <;> rfl
theorem hz1 : (![0] : Fin 1 → Nat) = fun _ => 0 := funext fun a => by fin_cases a; rfl

/-- Point t's blocks: block row t of the points and of the weights, block t of the loss lanes, and the one block of
    each of the two whole operands. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val :=
  (by decide +kernel : ∀ t : Fin grid0.N, _)

/-- The grid point as a number below 64. -/
def pointOf (t : Fin cfg0.N) : Fin 64 := ⟨t.val, lt_of_lt_of_eq t.isLt N_0⟩

/-- An index of the weights array is in point t's block iff each coordinate is in the block's range on its axis. -/
theorem mem_blk3 (t : Fin cfg0.N) (i : S131072x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v5_0).slice (win0_3.rect t)).set ↔ _
  rw [View.set_slice_whole, Rect.mem_set_unit]
  exact Iff.rfl

/-- The same for the loss-lane array. -/
theorem mem_blk4 (t : Fin cfg0.N) (i : S8192.Idx) :
    i ∈ ((cfg0.win 4).blk t).view.set ↔ ∀ a : Fin 1, win0_4.index t a * S128.size a ≤ (i a).val ∧ (i a).val < win0_4.index t a * S128.size a + S128.size a := by
  show i ∈ ((View.whole main_v5_1).slice (win0_4.rect t)).set ↔ _
  rw [View.set_slice_whole, Rect.mem_set_unit]
  exact Iff.rfl

/-- Every index of the weights array is in the block of the point its row belongs to. -/
theorem cover3 (i : S131072x512.Idx) : ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 64 := N_0
  let t : Fin cfg0.N := ⟨(i 0).val / 2048, by rw [hN]; omega⟩
  refine ⟨t, flush0_3 t, ?_⟩
  rw [mem_blk3]
  obtain ⟨-, -, -, -, -, -, e0, e1, -⟩ := idx_facts t
  intro a
  match a with
  | ⟨0, _⟩ =>
    show win0_3.index t (0 : Fin 2) * 2048 ≤ (i 0).val ∧ (i 0).val < win0_3.index t (0 : Fin 2) * 2048 + 2048
    rw [e0]; show (i 0).val / 2048 * 2048 ≤ (i 0).val ∧ (i 0).val < (i 0).val / 2048 * 2048 + 2048; omega
  | ⟨1, _⟩ =>
    show win0_3.index t (1 : Fin 2) * 512 ≤ (i 1).val ∧ (i 1).val < win0_3.index t (1 : Fin 2) * 512 + 512
    rw [e1]; omega

/-- Every index of the loss-lane array is in the block of the point its lane belongs to. -/
theorem cover4 (i : S8192.Idx) : ∃ t : Fin cfg0.N, (cfg0.win 4).flush t = true ∧ i ∈ ((cfg0.win 4).blk t).view.set := by
  have hi0 : (i 0).val < 8192 := (i 0).isLt
  have hN : cfg0.N = 64 := N_0
  let t : Fin cfg0.N := ⟨(i 0).val / 128, by rw [hN]; omega⟩
  refine ⟨t, flush0_4 t, ?_⟩
  rw [mem_blk4]
  obtain ⟨-, -, -, -, -, -, -, -, e0⟩ := idx_facts t
  intro a
  match a with
  | ⟨0, _⟩ =>
    show win0_4.index t (0 : Fin 1) * 128 ≤ (i 0).val ∧ (i 0).val < win0_4.index t (0 : Fin 1) * 128 + 128
    rw [e0]; show (i 0).val / 128 * 128 ≤ (i 0).val ∧ (i 0).val < (i 0).val / 128 * 128 + 128; omega

/-! ## The blocks a point reads -/

open Cert.SoftAssign Cert.SoftAssign.Tail Cert.SoftAssign.Tile

/-- The points and the centres by coordinates. -/
abbrev pts (c : Dev nD) : Fin 131072 → Fin 128 → EReal := fun n k => pointsArr m c (ix2 n k)
abbrev ctr (c : Dev nD) : Fin 512 → Fin 128 → EReal := fun j k => centresArr m c (ix2 j k)

/-- Point t's block of the points: rows 2048·t … of the argument. -/
theorem iblk0_apply (c : Dev nD) (t : Fin cfg0.N) (r : Fin 2048) (k : Fin 128) :
    (iblk m c 0 t : FVec Ideal S2048x128 .f32) (ix2 r k) = pts m c (rowOf (pointOf t) r) k := by
  obtain ⟨e0, e1, -⟩ := idx_facts t
  unfold iblk
  rw [View.read_apply]
  show V m c main_arg0 _ = pointsArr m c _
  rw [V_main_arg0]
  refine congrArg (pointsArr m c) (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 128 + 1 * k.val = k.val; rw [e1]; omega

/-- Every point's second block is the whole array of transposed centres. -/
theorem iblk1_apply (c : Dev nD) (t : Fin cfg0.N) (k : Fin 128) (j : Fin 512) :
    (iblk m c 1 t : FVec Ideal S128x512 .bf16) (ix2 k j) = ctr m c j k := by
  obtain ⟨-, -, e0, e1, -⟩ := idx_facts t
  unfold iblk
  rw [View.read_apply]
  show (V m c main_v4 : FVec Ideal S128x512 .bf16) _ = _
  rw [V_centresT]
  refine (congrArg _ (funext fun a => Fin.ext ?_ : _ = ix2 k j)).trans (centresT_apply (centresArr m c) k j)
  match a with
  | ⟨0, _⟩ => show win0_1.index t (0 : Fin 2) * 128 + 1 * k.val = k.val; rw [e0]; omega
  | ⟨1, _⟩ => show win0_1.index t (1 : Fin 2) * 512 + 1 * j.val = j.val; rw [e1]; omega

/-- Every point's third block is the whole row of the centres' squared lengths. -/
theorem iblk2_apply (c : Dev nD) (t : Fin cfg0.N) (j : Fin 512) :
    (iblk m c 2 t : FVec Ideal S1x512 .f32) (ix2 (0 : Fin 1) j) = Ideal.ofBits .f32 0x00000000#32 + sqNorm (ctr m c) j := by
  obtain ⟨-, -, -, -, e0, e1, -⟩ := idx_facts t
  unfold iblk
  rw [View.read_apply]
  show (V m c main_v2 : FVec Ideal S1x512 .f32) _ = _
  rw [V_centreNorms]
  refine (congrArg _ (funext fun a => Fin.ext ?_ : _ = ix2 (0 : Fin 1) j)).trans (centreNorms_apply (centresArr m c) j)
  match a with
  | ⟨0, _⟩ => show win0_2.index t (0 : Fin 2) * 1 + 1 * 0 = 0; rw [e0]
  | ⟨1, _⟩ => show win0_2.index t (1 : Fin 2) * 512 + 1 * j.val = j.val; rw [e1]; omega

/-! ## What a point writes back, and the arrays after the last point -/

/-- The weights at every index of the [131072, 512] array. -/
def weightsG (c : Dev nD) : FVec Ideal S131072x512 .f32 := fun i => assignMin (pts m c) (ctr m c) (i 0) (i 1)

/-- The sum of weight · distance over the rows of tile b. -/
def tileLoss (c : Dev nD) (b : Fin 64) : EReal :=
  ∑ r : Fin 2048, ∑ j : Fin 512, assignMin (pts m c) (ctr m c) (rowOf b r) j * dist (pts m c) (ctr m c) (rowOf b r) j

/-- The loss-lane array: throughout block b, the loss of tile b. -/
def lanesG (c : Dev nD) : FVec Ideal S8192 .f32 := fun i => tileLoss m c ⟨(i 0).val / 128, by have h : (i 0).val < 8192 := (i 0).isLt; omega⟩

/-- Point t writes back block t of the weights. -/
theorem flushed3_eq (c : Dev nD) (t : Fin cfg0.N) :
    (dats m 0 c).flushed 3 t = ((cfg0.win 3).blk t).view.read (Elt Ideal) (weightsG m c) := by
  show (cfg0.win 3).cut (grid0.coords t) ((dats m 0 c).after 3 t) = _
  rw [after0_3]
  unfold out0_3
  rw [View.canon_unit_zero hz2]
  simp only [View.ld_unit_zero (S := S2048x128) hz2, View.ld_unit_zero (S := S128x512) hz2, View.ld_unit_zero (S := S1x512) hz2]
  obtain ⟨-, -, -, -, -, -, e0, e1, -⟩ := idx_facts t
  funext j
  show k0_pay2 (F := Ideal) (iblk m c 0 t) (iblk m c 1 t) (iblk m c 2 t) j = weightsG m c (((cfg0.win 3).blk t).view.emb j)
  refine (congrArg (k0_pay2 (F := Ideal) (iblk m c 0 t) (iblk m c 1 t) (iblk m c 2 t)) (eq_ix2 j)).trans ?_
  refine (pay2_spec (pts m c) (ctr m c) (rowOf (pointOf t)) (iblk m c 0 t) (iblk m c 1 t) (iblk m c 2 t)
    (iblk0_apply m c t) (iblk1_apply m c t) (iblk2_apply m c t) (j 0) (j 1)).trans ?_
  unfold weightsG
  have h0 : (((cfg0.win 3).blk t).view.emb j) 0 = rowOf (pointOf t) (j 0) :=
    Fin.ext (by show win0_3.index t (0 : Fin 2) * 2048 + 1 * (j 0).val = 2048 * t.val + (j 0).val; rw [e0]; omega)
  have h1 : (((cfg0.win 3).blk t).view.emb j) 1 = j 1 :=
    Fin.ext (by show win0_3.index t (1 : Fin 2) * 512 + 1 * (j 1).val = (j 1).val; rw [e1]; omega)
  rw [h0, h1]

/-- Point t writes back block t of the loss lanes. -/
theorem flushed4_eq (c : Dev nD) (t : Fin cfg0.N) :
    (dats m 0 c).flushed 4 t = ((cfg0.win 4).blk t).view.read (Elt Ideal) (lanesG m c) := by
  show (cfg0.win 4).cut (grid0.coords t) ((dats m 0 c).after 4 t) = _
  rw [after0_4]
  unfold out0_4
  rw [View.canon_unit_zero hz1]
  simp only [View.ld_unit_zero (S := S2048x128) hz2, View.ld_unit_zero (S := S128x512) hz2, View.ld_unit_zero (S := S1x512) hz2]
  obtain ⟨-, -, -, -, -, -, -, -, e0⟩ := idx_facts t
  funext j
  show k0_pay3 (F := Ideal) (iblk m c 0 t) (iblk m c 1 t) (iblk m c 2 t) j = lanesG m c (((cfg0.win 4).blk t).view.emb j)
  refine (congrArg (k0_pay3 (F := Ideal) (iblk m c 0 t) (iblk m c 1 t) (iblk m c 2 t)) (eq_ix1 j)).trans ?_
  refine (pay3_spec (pts m c) (ctr m c) (rowOf (pointOf t)) (iblk m c 0 t) (iblk m c 1 t) (iblk m c 2 t)
    (iblk0_apply m c t) (iblk1_apply m c t) (iblk2_apply m c t) (j 0)).trans ?_
  unfold lanesG tileLoss
  have hj : (j 0).val < 128 := (j 0).isLt
  have hb : (⟨((((cfg0.win 4).blk t).view.emb j) 0).val / 128, by have h : ((((cfg0.win 4).blk t).view.emb j) 0).val < 8192 := ((((cfg0.win 4).blk t).view.emb j) 0).isLt; omega⟩ : Fin 64) = pointOf t :=
    Fin.ext (by show (win0_4.index t (0 : Fin 1) * 128 + 1 * (j 0).val) / 128 = t.val; rw [e0]; omega)
  rw [hb]

/-- After the last point the weights array holds the weights. -/
theorem final3 (c : Dev nD) : (dats m 0 c).arrAt 3 cfg0.N = weightsG m c :=
  (dats m 0 c).arrAt_eq_of_cover 3 (weightsG m c) (fun t _ => flushed3_eq m c t) cover3

/-- After the last point the loss-lane array holds each tile's loss throughout the tile's block. -/
theorem final4 (c : Dev nD) : (dats m 0 c).arrAt 4 cfg0.N = lanesG m c :=
  (dats m 0 c).arrAt_eq_of_cover 4 (lanesG m c) (fun t _ => flushed4_eq m c t) cover4

end Cert.SoftAssign.Arrays

end
-- ==== Proof.KernelRun.lean ====
/-
  The kernel's run, read: every weakly fair execution terminates with the weights array at the assignment weights
  (each row shifted by its least distance), the loss at the mean over the points of the weighted distances, and the
  two arguments unchanged.

  The loss is what the host computes after the kernel from the loss-lane array: lane 0 of each of the 64 blocks, summed
  from 0 and divided by 131072.  Block b holds the sum over the 2048 rows of tile b, and the 64 tiles' rows are the
  131072 points, so the sum over the blocks is the sum over the points.
-/
import proofs.«118801_j2138893713645_2_alg».proof.Proof.KernelArrays

noncomputable section

open scoped BigOperators

namespace Cert.SoftAssign.Run

open Idealize.ShloMosaic Idealize.ShloMosaic.TcCoe Idealize.SL.Sem Idealize.ShloMosaic.ValueIdx
open Idealize.ShloMosaic.Pipeline (Dat)
open Cert.KernelIdeal Cert.KernelIdeal.Gen Cert.SoftAssign Cert.SoftAssign.Arrays Cert.SoftAssign.Tail

variable (m : (ℓ : Loc nD τ sig) → Buf (Elt Ideal) ℓ) (ρ : Dev nD → PrngReg)

/-- The loss of the kernel's weights. -/
def lossG (c : Dev nD) : FVec Ideal S_ .f32 := fun _ => meanLoss (assignMin (pts m c) (ctr m c)) (pts m c) (ctr m c)

/-- The loss-lane array holds tile b's loss at every lane of block b. -/
theorem lanesG_lane (c : Dev nD) (b : Fin 64) (l : Fin 128) : lanesG m c (ix1 (laneOf b l)) = tileLoss m c b := by
  unfold lanesG
  refine congrArg (tileLoss m c) (Fin.ext ?_)
  show (128 * b.val + l.val) / 128 = b.val
  have := l.isLt
  omega

/-- The sum of the 64 tiles' losses is the sum over all points. -/
theorem sum_tileLoss (c : Dev nD) :
    ∑ b : Fin 64, tileLoss m c b
      = ∑ n : Fin 131072, ∑ j : Fin 512, assignMin (pts m c) (ctr m c) n j * dist (pts m c) (ctr m c) n j :=
  sum_rows fun n => ∑ j : Fin 512, assignMin (pts m c) (ctr m c) n j * dist (pts m c) (ctr m c) n j

/-- What the host leaves in the loss after the kernel. -/
theorem tail_loss (c : Dev nD) :
    Pipeline.afterTail₀ cfgs (dats m) 0 (V0 m) [hostOps1] c main_v10 = lossG m c := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.tc.devRef main_v5_1)
      = lanesG m c :=
    (Pipeline.withArrays_arr spec0 launch0.win.arr_inj c _ _ 4).trans (final4 m c)
  rw [hw]
  exact (tail_value (lanesG m c) (tileLoss m c) (lanesG_lane m c)).trans
    (funext fun _ => congrArg (fun s => Ideal.div s count) (sum_tileLoss m c))

/-- THE RUN, READ: the loss and the weights at their functions of the arguments, the arguments unchanged. -/
theorem run : θ_run defs (onTc (τ := τ) (main (F := Ideal))) ⟨m, fun _ => 0, ρ⟩ (fun r => ∀ c : Dev nD,
      r.2.mem ((c.tc : Thread nD τ).loc main_v10) = lossG m c
      ∧ r.2.mem ((c.tc : Thread nD τ).loc main_v5_0) = weightsG m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (tail_loss m c),
     ((h c).1 3).trans (final3 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.SoftAssign.Run

end
-- ==== Proof.RefSide.lean ====
/-
  The reference program's two results, read one element at a time, are the specification's two functions.

  Write X for the array of points read by coordinates and C for the array of centres.  The reference computes, for
  point n and centre m,
      |x_n|² = 0 + ∑ k, X n k · X n k,     |c_m|² = 0 + ∑ k, C m k · C m k,     <x_n, c_m> = ∑ k, X n k · C m k,
  and from them the distance  d n m = 1 · sqrt (max ((|x_n|² + |c_m|²) - 2 · <x_n, c_m>, 0)),  which is dist X C n m
  since 0 + s = s and 1 · s = s.

  The row's greatest distance is the fold of max from -∞ over the 512 centres, so the first exponent is
      a n m = -10 · (d n m - fold max (-∞) (d n ·)).
  The row's greatest exponent is again a fold of max from -∞, compared once more with -∞, and the reference subtracts it:
      a n m - max (-∞) (fold max (-∞) (a n ·)),
  which is the specification's shiftMax of the row d n ·, entry m.

  The weight of centre m for point n is exp of that exponent divided by 0 + the row's sum of such exponentials: the
  specification's softOf of the shifted row, that is assignMax X C n m.

  The loss is 0 + the sum over the points of 0 + the sum over the centres of weight · distance, divided by the number
  of points: the specification's meanLoss of the weights assignMax X C.

  Every literal other than 0 and 1 stays the single-precision word it is written as; the same words stand in the
  specification.
-/
import proofs.«118801_j2138893713645_2_alg».proof.Proof.Spec
import proofs.«118801_j2138893713645_2_alg».proof.Proof.Gen.ReferenceIdeal.Read
import Idealize.ShloMosaic.Lib.ValueIdx
import Idealize.ShloMosaic.PureOps.Ideal.Laws

noncomputable section

open scoped BigOperators

namespace Cert.SoftAssign.Ref

open Idealize.ShloMosaic Idealize.ShloMosaic.ValueIdx Cert.ReferenceIdeal Cert.ReferenceIdeal.Gen Cert.ReferenceIdeal.Read Cert.SoftAssign

/-- The array of points read by coordinates. -/
abbrev pts (x0 : (⟨S131072x128, .f32⟩ : BufTy).Contents (Elt Ideal)) : Fin 131072 → Fin 128 → EReal := fun n k => x0 (ix2 n k)
/-- The array of centres read by coordinates. -/
abbrev ctr (x1 : (⟨S512x128, .f32⟩ : BufTy).Contents (Elt Ideal)) : Fin 512 → Fin 128 → EReal := fun m k => x1 (ix2 m k)

/-- The single-precision word of 1 is the extended real 1. -/
private theorem ofBits_one_f32 : Ideal.ofBits .f32 0x3F800000#32 = (1 : EReal) := by
  simp [Ideal.ofBits, Ideal.ieee, -EReal.coe_mul]; norm_num

/-! ## The distance -/

/-- The squared length of point n: the sum from 0 of the squares of its coordinates. -/
theorem ref_e2 (x0 : (⟨S131072x128, .f32⟩ : BufTy).Contents (Elt Ideal)) (n : Fin 131072) :
    val_main_v1 (F := Ideal) x0 (ix1 n) = sqNorm (pts x0) n := by
  rw [val_main_v1_apply]
  show Ideal.ofBits .f32 0x00000000#32 + _ = _
  rw [Ideal.ofBits_zero_f32, zero_add]
  refine Finset.sum_congr rfl fun k _ => ?_
  have e : idx_main_v1 (ix1 n) k = ix2 n k :=
    funext fun a => Fin.ext (by match a with | ⟨0, _⟩ => rfl | ⟨1, _⟩ => rfl)
  rw [e]; rfl

/-- The squared length of centre m. -/
theorem ref_c2 (x1 : (⟨S512x128, .f32⟩ : BufTy).Contents (Elt Ideal)) (m : Fin 512) :
    val_main_v4 (F := Ideal) x1 (ix1 m) = sqNorm (ctr x1) m := by
  rw [val_main_v4_apply]
  show Ideal.ofBits .f32 0x00000000#32 + _ = _
  rw [Ideal.ofBits_zero_f32, zero_add]
  refine Finset.sum_congr rfl fun k _ => ?_
  have e : idx_main_v4 (ix1 m) k = ix2 m k :=
    funext fun a => Fin.ext (by match a with | ⟨0, _⟩ => rfl | ⟨1, _⟩ => rfl)
  rw [e]; rfl

/-- The inner product of point n and centre m: the contraction reads the transposed centres back at (m, k). -/
theorem ref_cross (x0 : (⟨S131072x128, .f32⟩ : BufTy).Contents (Elt Ideal)) (x1 : (⟨S512x128, .f32⟩ : BufTy).Contents (Elt Ideal))
    (n : Fin 131072) (m : Fin 512) :
    val_main_v6 (F := Ideal) x0 x1 (ix2 n m) = dotRow (pts x0) (ctr x1) n m := by
  rw [val_main_v6_apply]
  refine Finset.sum_congr rfl fun k _ => ?_
  have el : lidx_main_v6 (ix2 n m) k = ix2 n k :=
    funext fun a => Fin.ext (by match a with | ⟨0, _⟩ => rfl | ⟨1, _⟩ => rfl)
  have er : idx_main_v5 (ridx_main_v6 (ix2 n m) k) = ix2 m k :=
    funext fun a => Fin.ext (by match a with | ⟨0, _⟩ => rfl | ⟨1, _⟩ => rfl)
  rw [val_main_v5_apply, el, er]

/-- The distance of point n from centre m.  The two squared lengths are broadcast along the other axis, so at (n, m)
    they are read at n and at m; the sum from 0 and the product with 1 are the sum and the factor themselves. -/
theorem ref_dist (x0 : (⟨S131072x128, .f32⟩ : BufTy).Contents (Elt Ideal)) (x1 : (⟨S512x128, .f32⟩ : BufTy).Contents (Elt Ideal))
    (n : Fin 131072) (m : Fin 512) :
    val_main_v18 (F := Ideal) x0 x1 (ix2 n m) = dist (pts x0) (ctr x1) n m := by
  have ea : idx_main_v2 (idx_main_v8 (ix2 n m)) = ix1 n :=
    funext fun a => Fin.ext (by match a with | ⟨0, _⟩ => rfl)
  have eb : idx_main_v7 (idx_main_v9 (ix2 n m)) = ix1 m :=
    funext fun a => Fin.ext (by match a with | ⟨0, _⟩ => rfl)
  rw [val_main_v18_apply, val_main_v17_apply, val_main_cst_3_apply, val_main_v16_apply, val_main_v15_apply,
    val_main_v14_apply, val_main_cst_2_apply, val_main_v13_apply, val_main_v12_apply, val_main_v11_apply,
    val_main_cst_1_apply, val_main_v10_apply, val_main_v9_apply, val_main_v8_apply, val_main_v7_apply,
    val_main_v2_apply, ea, eb, ref_e2, ref_c2, ref_cross]
  simp only [Ideal.mulf_def, Ideal.addf_def, Ideal.subf_def, Ideal.maximumf_def, Ideal.hostUnary_sqrt_def,
    Ideal.ofBits_def, Ideal.ofBits_zero_f32, ofBits_one_f32, one_mul]
  rfl

/-! ## The two row maxima and the exponent -/

/-- A maximum over the centres of an array indexed by (point, centre), read at point n: the fold of max, from the
    initial value's one element, over the row n. -/
private theorem rowmax_fold (y : S131072x512.Idx → EReal) (init : S_.Idx → EReal) (n : Fin 131072) :
    Host.reduce (α := EReal) (FloatOps.maximumf (F := Ideal) (φ := .f32)) y init reducesTo_S131072x512_S131072_d1 h_S_ (ix1 n)
      = (Finset.univ : Finset (Fin 512)).fold max (init (Shape.Idx.first h_S_)) (fun m => y (ix2 n m)) := by
  rw [Host.reduce_eq_fold_single (FloatOps.maximumf (F := Ideal) (φ := .f32)) y init reducesTo_S131072x512_S131072_d1 (by decide) h_S_]
  refine Finset.fold_congr fun m _ => ?_
  exact congrArg y (funext fun a => Fin.ext (by match a with | ⟨0, _⟩ => rfl | ⟨1, _⟩ => rfl))

/-- The greatest distance of row n, folded from -∞. -/
theorem ref_rowmax (x0 : (⟨S131072x128, .f32⟩ : BufTy).Contents (Elt Ideal)) (x1 : (⟨S512x128, .f32⟩ : BufTy).Contents (Elt Ideal))
    (n : Fin 131072) :
    val_main_v19 (F := Ideal) x0 x1 (ix1 n)
      = (Finset.univ : Finset (Fin 512)).fold max negInf (dist (pts x0) (ctr x1) n) := by
  unfold val_main_v19
  refine (rowmax_fold _ _ n).trans ?_
  refine Finset.fold_congr fun m _ => ?_
  exact ref_dist x0 x1 n m

/-- The first exponent: -10 times the distance less the row's greatest distance. -/
theorem ref_expo (x0 : (⟨S131072x128, .f32⟩ : BufTy).Contents (Elt Ideal)) (x1 : (⟨S512x128, .f32⟩ : BufTy).Contents (Elt Ideal))
    (n : Fin 131072) (m : Fin 512) :
    val_main_v24 (F := Ideal) x0 x1 (ix2 n m)
      = negTen * (dist (pts x0) (ctr x1) n m
          - (Finset.univ : Finset (Fin 512)).fold max negInf (dist (pts x0) (ctr x1) n)) := by
  have ea : idx_main_v20 (idx_main_v21 (ix2 n m)) = ix1 n :=
    funext fun a => Fin.ext (by match a with | ⟨0, _⟩ => rfl)
  rw [val_main_v24_apply, val_main_v23_apply, val_main_cst_5_apply, val_main_v22_apply, val_main_v21_apply,
    val_main_v20_apply, ea, ref_rowmax, ref_dist]
  rfl

/-- The greatest exponent of row n, folded from -∞. -/
theorem ref_expomax (x0 : (⟨S131072x128, .f32⟩ : BufTy).Contents (Elt Ideal)) (x1 : (⟨S512x128, .f32⟩ : BufTy).Contents (Elt Ideal))
    (n : Fin 131072) :
    val_main_v25 (F := Ideal) x0 x1 (ix1 n)
      = (Finset.univ : Finset (Fin 512)).fold max negInf fun j =>
          negTen * (dist (pts x0) (ctr x1) n j
            - (Finset.univ : Finset (Fin 512)).fold max negInf (dist (pts x0) (ctr x1) n)) := by
  unfold val_main_v25
  refine (rowmax_fold _ _ n).trans ?_
  refine Finset.fold_congr fun j _ => ?_
  exact ref_expo x0 x1 n j

/-- The shifted exponent: the first exponent less the row's greatest exponent compared once more with -∞.  It is the
    specification's exponent for the row of distances of point n. -/
theorem ref_shift (x0 : (⟨S131072x128, .f32⟩ : BufTy).Contents (Elt Ideal)) (x1 : (⟨S512x128, .f32⟩ : BufTy).Contents (Elt Ideal))
    (n : Fin 131072) (m : Fin 512) :
    val_main_v30 (F := Ideal) x0 x1 (ix2 n m) = shiftMax (dist (pts x0) (ctr x1) n) m := by
  have ea : idx_main_v28 (idx_main_v29 (ix2 n m)) = ix1 n :=
    funext fun a => Fin.ext (by match a with | ⟨0, _⟩ => rfl)
  rw [val_main_v30_apply, val_main_v29_apply, val_main_v28_apply, ea, val_main_v27_apply, val_main_v26_apply,
    val_main_cst_7_apply, ref_expomax, ref_expo]
  rfl

/-! ## The weights -/

/-- The exponential of the shifted exponent. -/
theorem ref_exp (x0 : (⟨S131072x128, .f32⟩ : BufTy).Contents (Elt Ideal)) (x1 : (⟨S512x128, .f32⟩ : BufTy).Contents (Elt Ideal))
    (n : Fin 131072) (m : Fin 512) :
    val_main_v31 (F := Ideal) x0 x1 (ix2 n m) = Ideal.exp (shiftMax (dist (pts x0) (ctr x1) n) m) := by
  rw [val_main_v31_apply, ref_shift]
  rfl

/-- The row's sum of exponentials, from 0. -/
theorem ref_expsum (x0 : (⟨S131072x128, .f32⟩ : BufTy).Contents (Elt Ideal)) (x1 : (⟨S512x128, .f32⟩ : BufTy).Contents (Elt Ideal))
    (n : Fin 131072) :
    val_main_v32 (F := Ideal) x0 x1 (ix1 n) = ∑ j, Ideal.exp (shiftMax (dist (pts x0) (ctr x1) n) j) := by
  rw [val_main_v32_apply]
  show Ideal.ofBits .f32 0x00000000#32 + _ = _
  rw [Ideal.ofBits_zero_f32, zero_add]
  refine Finset.sum_congr rfl fun j _ => ?_
  have e : idx_main_v32 (ix1 n) j = ix2 n j :=
    funext fun a => Fin.ext (by match a with | ⟨0, _⟩ => rfl | ⟨1, _⟩ => rfl)
  rw [e, ref_exp]

/-- The weight of centre m for point n: the specification's, with the row shifted by its greatest distance. -/
theorem ref_assign_apply (x0 : (⟨S131072x128, .f32⟩ : BufTy).Contents (Elt Ideal)) (x1 : (⟨S512x128, .f32⟩ : BufTy).Contents (Elt Ideal))
    (n : Fin 131072) (m : Fin 512) :
    val_main_v35 (F := Ideal) x0 x1 (ix2 n m) = assignMax (pts x0) (ctr x1) n m := by
  have ea : idx_main_v33 (idx_main_v34 (ix2 n m)) = ix1 n :=
    funext fun a => Fin.ext (by match a with | ⟨0, _⟩ => rfl)
  rw [val_main_v35_apply, val_main_v34_apply, val_main_v33_apply, ea, ref_expsum, ref_exp]
  rfl

/-- The array of weights is the specification's, index by index. -/
theorem ref_assign (x0 : (⟨S131072x128, .f32⟩ : BufTy).Contents (Elt Ideal)) (x1 : (⟨S512x128, .f32⟩ : BufTy).Contents (Elt Ideal)) :
    val_main_v35 (F := Ideal) x0 x1 = fun i => assignMax (pts x0) (ctr x1) (i 0) (i 1) :=
  funext fun i => (congrArg (val_main_v35 (F := Ideal) x0 x1) (eq_ix2 i)).trans (ref_assign_apply x0 x1 (i 0) (i 1))

/-! ## The loss -/

/-- The weighted distance of point n and centre m. -/
theorem ref_wd (x0 : (⟨S131072x128, .f32⟩ : BufTy).Contents (Elt Ideal)) (x1 : (⟨S512x128, .f32⟩ : BufTy).Contents (Elt Ideal))
    (n : Fin 131072) (m : Fin 512) :
    val_main_v36 (F := Ideal) x0 x1 (ix2 n m)
      = assignMax (pts x0) (ctr x1) n m * dist (pts x0) (ctr x1) n m := by
  rw [val_main_v36_apply, ref_assign_apply, ref_dist]
  rfl

/-- The sum over the centres, from 0, of the weighted distances of point n. -/
theorem ref_rowloss (x0 : (⟨S131072x128, .f32⟩ : BufTy).Contents (Elt Ideal)) (x1 : (⟨S512x128, .f32⟩ : BufTy).Contents (Elt Ideal))
    (n : Fin 131072) :
    val_main_v37 (F := Ideal) x0 x1 (ix1 n)
      = ∑ m, assignMax (pts x0) (ctr x1) n m * dist (pts x0) (ctr x1) n m := by
  rw [val_main_v37_apply]
  show Ideal.ofBits .f32 0x00000000#32 + _ = _
  rw [Ideal.ofBits_zero_f32, zero_add]
  refine Finset.sum_congr rfl fun j _ => ?_
  have e : idx_main_v37 (ix1 n) j = ix2 n j :=
    funext fun a => Fin.ext (by match a with | ⟨0, _⟩ => rfl | ⟨1, _⟩ => rfl)
  rw [e, ref_wd]

/-- The indices of the array of points' sums are the points. -/
private def idxEquiv1 : S131072.Idx ≃ Fin 131072 where
  toFun j := j 0
  invFun n := ix1 n
  left_inv j := (eq_ix1 j).symm
  right_inv _ := rfl

/-- The sum over the points, from 0, of those sums. -/
theorem ref_total (x0 : (⟨S131072x128, .f32⟩ : BufTy).Contents (Elt Ideal)) (x1 : (⟨S512x128, .f32⟩ : BufTy).Contents (Elt Ideal))
    (i : S_.Idx) :
    val_main_v38 (F := Ideal) x0 x1 i
      = ∑ n, ∑ m, assignMax (pts x0) (ctr x1) n m * dist (pts x0) (ctr x1) n m := by
  rw [val_main_v38_apply]
  show Ideal.ofBits .f32 0x00000000#32 + _ = _
  rw [Ideal.ofBits_zero_f32, zero_add]
  refine Fintype.sum_equiv idxEquiv1 _ _ fun j => ?_
  exact (congrArg (val_main_v37 (F := Ideal) x0 x1) (eq_ix1 j)).trans (ref_rowloss x0 x1 (j 0))

/-- The loss at its one index: the total divided by the number of points. -/
theorem ref_loss_apply (x0 : (⟨S131072x128, .f32⟩ : BufTy).Contents (Elt Ideal)) (x1 : (⟨S512x128, .f32⟩ : BufTy).Contents (Elt Ideal))
    (i : S_.Idx) :
    val_main_v39 (F := Ideal) x0 x1 i = meanLoss (assignMax (pts x0) (ctr x1)) (pts x0) (ctr x1) := by
  rw [val_main_v39_apply, ref_total]
  rfl

/-- The loss is the specification's mean of the weighted distances, for the weights above. -/
theorem ref_loss (x0 : (⟨S131072x128, .f32⟩ : BufTy).Contents (Elt Ideal)) (x1 : (⟨S512x128, .f32⟩ : BufTy).Contents (Elt Ideal)) :
    val_main_v39 (F := Ideal) x0 x1 = fun _ => meanLoss (assignMax (pts x0) (ctr x1)) (pts x0) (ctr x1) :=
  funext fun i => ref_loss_apply x0 x1 i

end Cert.SoftAssign.Ref

end
-- ==== Proof.Finite.lean ====
/-
  The precondition "every input is finite", read back as "every entry is a real number".

  The precondition is a printed program: it compares the absolute value of every entry of the two arrays with +∞,
  takes the conjunction of all the comparison words of each array, and then the conjunction of the two results.  It
  states that the final word is 1.

  A conjunction of two one-bit words is 1 only when both are; a conjunction over a whole array that came out 1 met a 1
  at every index.  So at every index the comparison word is 1, which says that the absolute value max x (-x) of the
  entry x is strictly below +∞.  Neither infinity has that property: the absolute value of -∞ and of +∞ is +∞.
  So the entry is a real number.
-/
import proofs.«118801_j2138893713645_2_alg».proof.Pre_finite_inputs
import proofs.«118801_j2138893713645_2_alg».proof.Proof.Gen.Pre_finite_inputs
import proofs.«118801_j2138893713645_2_alg».proof.Proof.LibReal
import Idealize.ShloMosaic.Lib.ReduceAll
import Idealize.ShloMosaic.Lib.ValueIdx
import Idealize.ShloMosaic.PureOps.Ideal.Laws

noncomputable section
namespace Cert.SoftAssign.Finite
open Idealize.ShloMosaic Idealize.ShloMosaic.ValueIdx Cert.LibReal

/-- an extended real whose absolute value is below +inf is a real number -/
theorem isReal_of_abs_lt (x : EReal) (h : max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

/-- The word of +∞ denotes +∞. -/
theorem inf_eq : Ideal.ofBits .f32 0x7F800000#32 = (⊤ : EReal) := by
  simp [Ideal.ofBits, Ideal.ieee]

/-- An entry whose absolute value compares strictly below the word of +∞ is a real number. -/
theorem isReal_of_cmp (x : EReal)
    (h : Ideal.cmp .olt (max x (-x)) (Ideal.ofBits .f32 0x7F800000#32) = 1#1) : IsReal x := by
  rw [inf_eq] at h
  apply isReal_of_abs_lt
  by_contra hn
  have h0 : Ideal.cmp .olt (max x (-x)) ⊤ = 0#1 := by
    show BitVec.ofBool (decide (max x (-x) < ⊤)) = 0#1
    rw [decide_eq_false hn]; rfl
  rw [h0] at h
  exact absurd h (by decide)

/-- The result of the precondition has a single index. -/
instance : Subsingleton Cert.Pre_finite_inputs.S_.Idx := ⟨fun a b => funext fun d => d.elim0⟩

/-- the precondition gives every entry of both arrays as a real number -/
theorem entries_real (a0 : FVec Ideal Cert.Pre_finite_inputs.S131072x128 .f32) (a1 : FVec Ideal Cert.Pre_finite_inputs.S512x128 .f32)
    (h : Cert.Pre_finite_inputs.fn (F := Ideal) a0 a1 = fun _ => 1#1) :
    (∀ i, IsReal (a0 i)) ∧ (∀ i, IsReal (a1 i)) := by
  have h0 := congrFun h ValueIdx.ix0
  dsimp only [Cert.Pre_finite_inputs.fn] at h0
  obtain ⟨hA, hB⟩ := IntOp.andi_eq_one.1 h0
  exact ⟨fun i => isReal_of_cmp (a0 i) (Host.reduce_andi_all _ _ _ _ _ hA i),
    fun i => isReal_of_cmp (a1 i) (Host.reduce_andi_all _ _ _ _ _ hB i)⟩

end Cert.SoftAssign.Finite
end
-- ==== Proof.lean ====
/-
  A soft assignment of 131072 points to 512 centres: the kernel and its reference compute the same weights and the
  same loss on the extended reals, for finite inputs.

  Both programs form the distances  dist n m = sqrt (max (|x_n|² + |c_m|² - 2 <x_n, c_m>, 0))  (the kernel rounds its
  matrix product's operands to bf16, which is the identity on exact values, and multiplies by the transposed centres;
  the reference forms the same inner products) and take a softmax of -10 · dist along each row.  They differ in the
  shift that stabilises the softmax: the kernel subtracts the row's least distance, the reference the row's greatest
  distance and then the greatest exponent.  For real distances the two exponents are the same number — multiplying by
  -10 turns the greatest distance into the least exponent — and the distances are real because the inputs are finite;
  this is the one place the precondition is used.  The loss is the sum over all points of  ∑ m, weight · dist  divided
  by 131072: the reference sums the rows in one pass, the kernel sums each tile of 2048 rows into a block of 128 equal
  lanes and the host adds lane 0 of the 64 blocks, which is the same sum regrouped.

  The kernel's arrays after its run are read off its frame run tile by tile (KernelTile, KernelTileSpec,
  KernelArrays, KernelTail, KernelRun); the reference's results are read stage by stage (RefSide); the law between the
  two shifts and the finiteness it needs are ShiftLaw and Finite.  No operation was rewritten when the kernel was
  idealized, so there is nothing to preserve.
-/
import proofs.«118801_j2138893713645_2_alg».proof.Defs
import proofs.«118801_j2138893713645_2_alg».proof.Proof.Gen.Kernel
import proofs.«118801_j2138893713645_2_alg».proof.Proof.Gen.Kernel.Skeleton
import proofs.«118801_j2138893713645_2_alg».proof.Proof.Gen.Kernel.Launch
import proofs.«118801_j2138893713645_2_alg».proof.Proof.Gen.Kernel.Points
import proofs.«118801_j2138893713645_2_alg».proof.Proof.Gen.Kernel.Frame
import proofs.«118801_j2138893713645_2_alg».proof.Proof.Gen.KernelIdeal
import proofs.«118801_j2138893713645_2_alg».proof.Proof.Gen.KernelIdeal.Skeleton
import proofs.«118801_j2138893713645_2_alg».proof.Proof.Gen.KernelIdeal.Launch
import proofs.«118801_j2138893713645_2_alg».proof.Proof.Gen.KernelIdeal.Points
import proofs.«118801_j2138893713645_2_alg».proof.Proof.Gen.KernelIdeal.Frame
import proofs.«118801_j2138893713645_2_alg».proof.Proof.Gen.ReferenceIdeal
import proofs.«118801_j2138893713645_2_alg».proof.Proof.Gen.Pre_finite_inputs
import proofs.«118801_j2138893713645_2_alg».proof.Proof.Gen.ReferenceIdeal.Run
import proofs.«118801_j2138893713645_2_alg».proof.Proof.Gen.ReferenceIdeal.Read
import proofs.«118801_j2138893713645_2_alg».proof.Proof.KernelRun
import proofs.«118801_j2138893713645_2_alg».proof.Proof.RefSide
import proofs.«118801_j2138893713645_2_alg».proof.Proof.ShiftLaw
import proofs.«118801_j2138893713645_2_alg».proof.Proof.Finite
import Idealize.ShloMosaic.Adequacy
import Idealize.ShloMosaic.Init

noncomputable section

namespace Cert.Proof

open Idealize.ShloMosaic Idealize.SL.Sem Idealize.ShloMosaic.ValueIdx Cert.SoftAssign

/-- The three programs run, and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the loss at the mean of the weighted distances and the weights at the softmax shifted by
    each row's least distance: the kernel by its run, the reference because its own shift gives the same exponents on
    the real distances that finite inputs have. -/
theorem algebraic : Cert.algebraic_KernelIdeal_ReferenceIdeal := by
  intro m ρ m' ρ' hpre hagree
  refine ⟨fun c => Run.lossG m c, fun c => Arrays.weightsG m c, Run.run m ρ, ?_⟩
  refine (θ_run Cert.ReferenceIdeal.defs _ _).mono (fun _ h c => ?_) (Cert.ReferenceIdeal.Value.run (F := Ideal) m' ρ')
  obtain ⟨h39, h35, ha0, ha1⟩ := h c
  obtain ⟨hX, hC⟩ := Cert.SoftAssign.Finite.entries_real _ _ (hpre c)
  have hlaw := assignMax_eq_assignMin (Arrays.pts m c) (Arrays.ctr m c) (fun n k => hX (ix2 n k)) (fun j k => hC (ix2 j k))
  have e0 : Ref.pts (m ((c.tc : Thread Cert.KernelIdeal.nD Cert.KernelIdeal.τ).loc Cert.KernelIdeal.main_arg0)) = Arrays.pts m c := rfl
  have e1 : Ref.ctr (m ((c.tc : Thread Cert.KernelIdeal.nD Cert.KernelIdeal.τ).loc Cert.KernelIdeal.main_arg1)) = Arrays.ctr m c := rfl
  refine ⟨h39.trans ?_, h35.trans ?_, ha0, ha1⟩
  · rw [Cert.ReferenceIdeal.Read.val_main_v39_eq, (hagree c).1, (hagree c).2, Ref.ref_loss, e0, e1, hlaw]
    rfl
  · rw [Cert.ReferenceIdeal.Read.val_main_v35_eq, (hagree c).1, (hagree c).2, Ref.ref_assign, e0, e1, hlaw]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
